-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x3 : Shape := ⟨2, ![262144, 3]⟩
abbrev S1x3 : Shape := ⟨2, ![1, 3]⟩
abbrev S16777216 : Shape := ⟨1, ![16777216]⟩
abbrev S_ : Shape := ⟨0, ![]⟩

class Facts : Prop where
  bcast_S_S262144x3 : S_.BroadcastsInDim S262144x3 (![] : Fin 0 → Fin S262144x3.rank)
  reducesTo_S262144x3_S_d0_1 : S262144x3.ReducesTo [0, 1] S_
  h_S_ : 0 < S_.numel
  bcast_S_S1x3 : S_.BroadcastsInDim S1x3 (![] : Fin 0 → Fin S1x3.rank)
  reducesTo_S1x3_S_d0_1 : S1x3.ReducesTo [0, 1] S_

variable [Facts]

def fn {F : FTy → Type} [FloatOps F] (main_arg0 : FVec F S262144x3 .f32) (main_arg1 : FVec F S1x3 .f32) (main_arg2 : IVec S16777216 32) (main_arg3 : IVec S16777216 32) : IVec S_ 1 :=
  let main_v0 : FVec F S262144x3 .f32 := Host.absf main_arg0
  let main_cst : FVec F S_ .f32 := constant S_ .f32 0x7F800000#32
  let main_v1 : FVec F S262144x3 .f32 := broadcastInDim S262144x3 ![] bcast_S_S262144x3 main_cst
  let main_v2 : IVec S262144x3 1 := cmpf .olt main_v0 main_v1
  let main_c : IVec S_ 1 := constantI S_ 1 1#1
  let main_v3 : IVec S_ 1 := (fun x v => Host.reduce IntOp.andi x v reducesTo_S262144x3_S_d0_1 h_S_) main_v2 main_c
  let main_v4 : FVec F S1x3 .f32 := Host.absf main_arg1
  let main_cst_0 : FVec F S_ .f32 := constant S_ .f32 0x7F800000#32
  let main_v5 : FVec F S1x3 .f32 := broadcastInDim S1x3 ![] bcast_S_S1x3 main_cst_0
  let main_v6 : IVec S1x3 1 := cmpf .olt main_v4 main_v5
  let main_c_1 : IVec S_ 1 := constantI S_ 1 1#1
  let main_v7 : IVec S_ 1 := (fun x v => Host.reduce IntOp.andi x v reducesTo_S1x3_S_d0_1 h_S_) main_v6 main_c_1
  let main_v8 : IVec S_ 1 := andi main_v3 main_v7
  main_v8
-- ==== Kernel.lean ====
abbrev S262144x3 : Shape := ⟨2, ![262144, 3]⟩
abbrev S1x3 : Shape := ⟨2, ![1, 3]⟩
abbrev S16777216 : Shape := ⟨1, ![16777216]⟩
abbrev S3x262144 : Shape := ⟨2, ![3, 262144]⟩
abbrev S_ : Shape := ⟨0, ![]⟩
abbrev S16777216x1 : Shape := ⟨2, ![16777216, 1]⟩
abbrev S3x16777216 : Shape := ⟨2, ![3, 16777216]⟩
abbrev S3x1 : Shape := ⟨2, ![3, 1]⟩
abbrev S1x16777216 : Shape := ⟨2, ![1, 16777216]⟩
abbrev S3x65536 : Shape := ⟨2, ![3, 65536]⟩
abbrev S1x65536 : Shape := ⟨2, ![1, 65536]⟩
abbrev S16777216x3 : Shape := ⟨2, ![16777216, 3]⟩

abbrev nBuf : Space → Nat
  | .hbm => 28
  | .vmem => 9
  | .smem => 0
  | _ => 0

abbrev bufTy : (tb : Table) → Fin (tcTables nBuf tb) → BufTy
  | .hbm, ⟨0, _⟩ => ⟨S262144x3, .f32⟩
  | .hbm, ⟨1, _⟩ => ⟨S1x3, .f32⟩
  | .hbm, ⟨2, _⟩ => ⟨S16777216, .i32⟩
  | .hbm, ⟨3, _⟩ => ⟨S16777216, .i32⟩
  | .hbm, ⟨4, _⟩ => ⟨S3x262144, .f32⟩
  | .hbm, ⟨5, _⟩ => ⟨S_, .i32⟩
  | .hbm, ⟨6, _⟩ => ⟨S16777216, .i32⟩
  | .hbm, ⟨7, _⟩ => ⟨S16777216, .i1⟩
  | .hbm, ⟨8, _⟩ => ⟨S_, .i32⟩
  | .hbm, ⟨9, _⟩ => ⟨S16777216, .i32⟩
  | .hbm, ⟨10, _⟩ => ⟨S16777216, .i32⟩
  | .hbm, ⟨11, _⟩ => ⟨S16777216, .i32⟩
  | .hbm, ⟨12, _⟩ => ⟨S16777216x1, .i32⟩
  | .hbm, ⟨13, _⟩ => ⟨S3x16777216, .f32⟩
  | .hbm, ⟨14, _⟩ => ⟨S_, .i32⟩
  | .hbm, ⟨15, _⟩ => ⟨S16777216, .i32⟩
  | .hbm, ⟨16, _⟩ => ⟨S16777216, .i1⟩
  | .hbm, ⟨17, _⟩ => ⟨S_, .i32⟩
  | .hbm, ⟨18, _⟩ => ⟨S16777216, .i32⟩
  | .hbm, ⟨19, _⟩ => ⟨S16777216, .i32⟩
  | .hbm, ⟨20, _⟩ => ⟨S16777216, .i32⟩
  | .hbm, ⟨21, _⟩ => ⟨S16777216x1, .i32⟩
  | .hbm, ⟨22, _⟩ => ⟨S3x16777216, .f32⟩
  | .hbm, ⟨23, _⟩ => ⟨S3x1, .f32⟩
  | .hbm, ⟨24, _⟩ => ⟨S3x16777216, .f32⟩
  | .hbm, ⟨25, _⟩ => ⟨S1x16777216, .f32⟩
  | .hbm, ⟨26, _⟩ => ⟨S16777216x3, .f32⟩
  | .hbm, ⟨27, _⟩ => ⟨S16777216x1, .f32⟩
  | .local _ .vmem, ⟨0, _⟩ => ⟨S3x65536, .f32⟩
  | .local _ .vmem, ⟨1, _⟩ => ⟨S3x65536, .f32⟩
  | .local _ .vmem, ⟨2, _⟩ => ⟨S3x65536, .f32⟩
  | .local _ .vmem, ⟨3, _⟩ => ⟨S3x65536, .f32⟩
  | .local _ .vmem, ⟨4, _⟩ => ⟨S3x1, .f32⟩
  | .local _ .vmem, ⟨5, _⟩ => ⟨S3x65536, .f32⟩
  | .local _ .vmem, ⟨6, _⟩ => ⟨S3x65536, .f32⟩
  | .local _ .vmem, ⟨7, _⟩ => ⟨S1x65536, .f32⟩
  | .local _ .vmem, ⟨8, _⟩ => ⟨S1x65536, .f32⟩
  | _, _ => ⟨S262144x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16_0 : Ref sig .tc := ⟨.hbm, 24, rfl⟩
abbrev main_v16_1 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S3x65536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x65536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  transposes_S262144x3_S3x262144_1_0 : S262144x3.Transposes [1, 0] S3x262144
  bcast_S_S16777216 : S_.BroadcastsInDim S16777216 (![] : Fin 0 → Fin S16777216.rank)
  bcast_S16777216_S16777216x1_0 : S16777216.BroadcastsInDim S16777216x1 (![0] : Fin 1 → Fin S16777216x1.rank)
  shapeCasts_S1x3_S3x1 : S1x3.ShapeCasts S3x1
  inb_S3x65536_S3x65536_0_0 : ∀ a, (![0, 0] : Fin 2 → Nat) a + S3x65536.size a ≤ S3x65536.size a
  h_S3x65536 : 0 < S3x65536.numel
  shapeCasts_S3x65536_S3x65536 : S3x65536.ShapeCasts S3x65536
  inb_S3x1_S3x1_0_0 : ∀ a, (![0, 0] : Fin 2 → Nat) a + S3x1.size a ≤ S3x1.size a
  h_S3x1 : 0 < S3x1.numel
  shapeCasts_S3x1_S3x1 : S3x1.ShapeCasts S3x1
  broadcasts_S3x1_S3x65536 : S3x1.Broadcasts S3x65536
  slices_S3x65536_o0_0_S1x65536 : S3x65536.Slices ![0, 0] S1x65536
  slices_S3x65536_o1_0_S1x65536 : S3x65536.Slices ![1, 0] S1x65536
  slices_S3x65536_o2_0_S1x65536 : S3x65536.Slices ![2, 0] S1x65536
  inb_S1x65536_S1x65536_0_0 : ∀ a, (![0, 0] : Fin 2 → Nat) a + S1x65536.size a ≤ S1x65536.size a
  h_S1x65536 : 0 < S1x65536.numel
  transposes_S3x16777216_S16777216x3_1_0 : S3x16777216.Transposes [1, 0] S16777216x3
  shapeCasts_S1x16777216_S16777216x1 : S1x16777216.ShapeCasts S16777216x1
  gather_S3x262144_S16777216x1_S3x16777216_0_1_n_n_1_1_31_wf : GatherDims.WF S3x262144 S16777216x1 S3x16777216 [0] [1] [] [1] [] 1 ![3, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x65536.size a ≤ S3x16777216.size a
  hwx0_0 : ∀ i : grid0.Coords, EltTy.bits .f32 = 32 ∨ (Rect.block (s := S3x16777216) S3x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x65536.size a ≤ S3x16777216.size a
  hwx0_1 : ∀ i : grid0.Coords, EltTy.bits .f32 = 32 ∨ (Rect.block (s := S3x16777216) S3x65536.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x1.size a ≤ S3x1.size a
  hwx0_2 : ∀ i : grid0.Coords, EltTy.bits .f32 = 32 ∨ (Rect.block (s := S3x1) S3x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3x65536.size a ≤ S3x16777216.size a
  hwx0_3 : ∀ i : grid0.Coords, EltTy.bits .f32 = 32 ∨ (Rect.block (s := S3x16777216) S3x65536.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x65536.size a ≤ S1x16777216.size a
  hwx0_4 : ∀ i : grid0.Coords, EltTy.bits .f32 = 32 ∨ (Rect.block (s := S1x16777216) S1x65536.size (cc0_transform_4 i) (hinb0_4 i)).WholeWords (EltTy.packing .f32)

variable [Facts₀]

def gather_S3x262144_S16777216x1_S3x16777216_0_1_n_n_1_1_31 : GatherDims S3x262144 S16777216x1 S3x16777216 where
  offsetDims := [0]
  collapsedSliceDims := [1]
  operandBatchingDims := []
  startIndicesBatchingDims := []
  startIndexMap := [1]
  indexVectorDim := 1
  sliceSizes := ![3, 1]
  wf := gather_S3x262144_S16777216x1_S3x16777216_0_1_n_n_1_1_31_wf

abbrev win0_0 : Pipeline.Window sig grid0 :=
  Pipeline.Window.ofSpec (Memref.whole main_v7) S3x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S3x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S3x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16_0) S3x65536.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16_1) S1x65536.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S262144x3 : Shape := ⟨2, ![262144, 3]⟩
abbrev S1x3 : Shape := ⟨2, ![1, 3]⟩
abbrev S16777216 : Shape := ⟨1, ![16777216]⟩
abbrev S_ : Shape := ⟨0, ![]⟩
abbrev S16777216x1 : Shape := ⟨2, ![16777216, 1]⟩
abbrev S16777216x3 : Shape := ⟨2, ![16777216, 3]⟩

abbrev nBuf : Space → Nat
  | .hbm => 34
  | .vmem => 0
  | .smem => 0
  | _ => 0

abbrev bufTy : (tb : Table) → Fin (tcTables nBuf tb) → BufTy
  | .hbm, ⟨0, _⟩ => ⟨S262144x3, .f32⟩
  | .hbm, ⟨1, _⟩ => ⟨S1x3, .f32⟩
  | .hbm, ⟨2, _⟩ => ⟨S16777216, .i32⟩
  | .hbm, ⟨3, _⟩ => ⟨S16777216, .i32⟩
  | .hbm, ⟨4, _⟩ => ⟨S_, .i32⟩
  | .hbm, ⟨5, _⟩ => ⟨S16777216, .i32⟩
  | .hbm, ⟨6, _⟩ => ⟨S16777216, .i1⟩
  | .hbm, ⟨7, _⟩ => ⟨S_, .i32⟩
  | .hbm, ⟨8, _⟩ => ⟨S16777216, .i32⟩
  | .hbm, ⟨9, _⟩ => ⟨S16777216, .i32⟩
  | .hbm, ⟨10, _⟩ => ⟨S16777216, .i32⟩
  | .hbm, ⟨11, _⟩ => ⟨S16777216x1, .i32⟩
  | .hbm, ⟨12, _⟩ => ⟨S16777216x3, .f32⟩
  | .hbm, ⟨13, _⟩ => ⟨S_, .i32⟩
  | .hbm, ⟨14, _⟩ => ⟨S16777216, .i32⟩
  | .hbm, ⟨15, _⟩ => ⟨S16777216, .i1⟩
  | .hbm, ⟨16, _⟩ => ⟨S_, .i32⟩
  | .hbm, ⟨17, _⟩ => ⟨S16777216, .i32⟩
  | .hbm, ⟨18, _⟩ => ⟨S16777216, .i32⟩
  | .hbm, ⟨19, _⟩ => ⟨S16777216, .i32⟩
  | .hbm, ⟨20, _⟩ => ⟨S16777216x1, .i32⟩
  | .hbm, ⟨21, _⟩ => ⟨S16777216x3, .f32⟩
  | .hbm, ⟨22, _⟩ => ⟨S16777216x3, .f32⟩
  | .hbm, ⟨23, _⟩ => ⟨S16777216x3, .f32⟩
  | .hbm, ⟨24, _⟩ => ⟨S16777216x3, .f32⟩
  | .hbm, ⟨25, _⟩ => ⟨S16777216x3, .f32⟩
  | .hbm, ⟨26, _⟩ => ⟨S16777216x3, .f32⟩
  | .hbm, ⟨27, _⟩ => ⟨S16777216x3, .f32⟩
  | .hbm, ⟨28, _⟩ => ⟨S16777216x3, .f32⟩
  | .hbm, ⟨29, _⟩ => ⟨S16777216x3, .f32⟩
  | .hbm, ⟨30, _⟩ => ⟨S_, .f32⟩
  | .hbm, ⟨31, _⟩ => ⟨S16777216, .f32⟩
  | .hbm, ⟨32, _⟩ => ⟨S16777216x1, .f32⟩
  | .hbm, ⟨33, _⟩ => ⟨S16777216x1, .f32⟩
  | _, _ => ⟨S262144x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call1_v0 : Ref sig .tc := ⟨.hbm, 29, rfl⟩
abbrev main_call1_cst : Ref sig .tc := ⟨.hbm, 30, rfl⟩
abbrev main_call1_v1 : Ref sig .tc := ⟨.hbm, 31, rfl⟩
abbrev main_call1_v2 : Ref sig .tc := ⟨.hbm, 32, rfl⟩
abbrev main_v21 : Ref sig .tc := ⟨.hbm, 33, rfl⟩

abbrev nD : Nat := 1
abbrev τ : Topo := Topo.v7x

variable {F : FTy → Type} [FloatOps F]

class Facts₀ : Prop where
  bcast_S_S16777216 : S_.BroadcastsInDim S16777216 (![] : Fin 0 → Fin S16777216.rank)
  bcast_S16777216_S16777216x1_0 : S16777216.BroadcastsInDim S16777216x1 (![0] : Fin 1 → Fin S16777216x1.rank)
  bcast_S1x3_S16777216x3_0_1 : S1x3.BroadcastsInDim S16777216x3 (![0, 1] : Fin 2 → Fin S16777216x3.rank)
  reducesTo_S16777216x3_S16777216_d1 : S16777216x3.ReducesTo [1] S16777216
  h_S_ : 0 < S_.numel
  gather_S262144x3_S16777216x1_S16777216x3_1_0_n_n_0_1_13_wf : GatherDims.WF S262144x3 S16777216x1 S16777216x3 [1] [0] [] [0] [] 1 ![1, 3]

variable [Facts₀]

def gather_S262144x3_S16777216x1_S16777216x3_1_0_n_n_0_1_13 : GatherDims S262144x3 S16777216x1 S16777216x3 where
  offsetDims := [1]
  collapsedSliceDims := [0]
  operandBatchingDims := []
  startIndicesBatchingDims := []
  startIndexMap := [0]
  indexVectorDim := 1
  sliceSizes := ![1, 3]
  wf := gather_S262144x3_S16777216x1_S16777216x3_1_0_n_n_0_1_13_wf

class Facts : Prop extends Facts₀ where

variable [Facts]
-- ==== Proof.Spec.lean ====
/-
  The minimum-image displacement of a list of atom pairs in a periodic box, as ONE function of the four
  argument arrays, index by index, over the extended reals.

  For pair `e` with end points `s = senders[e]`, `r = receivers[e]` and axis `k`:
    d      = coords[node r, k] - coords[node s, k]
    wrap   = d - roundeven (d / box[0, k]) * box[0, k]
    dist e = sqrt ((wrap₀² + wrap₁²) + wrap₂²)
  where `node` is numpy's reading of an index word: a negative word counts from the end (262144 is added),
  and the outcome is clamped into the table `[0, 262143]`.
-/
import Idealize.ShloMosaic.PureOps.Ideal
import Idealize.ShloMosaic.Lib.ValueIdx

noncomputable section

namespace Cert.MinImage

open Idealize.ShloMosaic Idealize.ShloMosaic.ValueIdx

/-- The table row an index word names: a negative word counts from the end of the 262144 rows, and the
    outcome, read as a signed integer, is clamped into the table. -/
def node (s : BitVec 32) : Fin 262144 :=
  ⟨min (Scalar.select (IntOp.cmpi .slt s 0#32) (IntOp.addi s 262144#32) s).toInt.toNat 262143, by omega⟩

/-- The raw displacement of pair `e` on axis `k`: the receiver's coordinate less the sender's. -/
def disp (coords : (⟨2, ![262144, 3]⟩ : Shape).Idx → EReal) (snd rcv : (⟨1, ![16777216]⟩ : Shape).Idx → BitVec 32)
    (e : Fin 16777216) (k : Fin 3) : EReal :=
  coords (ix2 (node (rcv (ix1 e))) k) - coords (ix2 (node (snd (ix1 e))) k)

/-- A displacement `d` folded into the box of side `b`: the nearest whole number of sides is taken off. -/
def fold (d b : EReal) : EReal := d - Ideal.liftRound Ideal.roundHalfEven (Ideal.div d b) * b

/-- The minimum-image displacement of pair `e` on axis `k`. -/
def wrap (coords : (⟨2, ![262144, 3]⟩ : Shape).Idx → EReal) (box : (⟨2, ![1, 3]⟩ : Shape).Idx → EReal)
    (snd rcv : (⟨1, ![16777216]⟩ : Shape).Idx → BitVec 32) (e : Fin 16777216) (k : Fin 3) : EReal :=
  fold (disp coords snd rcv e k) (box (ix2 (0 : Fin 1) k))

/-- Its Euclidean length: the square root of the three squares, added in the order first, second, third. -/
def dist (coords : (⟨2, ![262144, 3]⟩ : Shape).Idx → EReal) (box : (⟨2, ![1, 3]⟩ : Shape).Idx → EReal)
    (snd rcv : (⟨1, ![16777216]⟩ : Shape).Idx → BitVec 32) (e : Fin 16777216) : EReal :=
  Ideal.sqrt ((wrap coords box snd rcv e 0 * wrap coords box snd rcv e 0
      + wrap coords box snd rcv e 1 * wrap coords box snd rcv e 1)
    + wrap coords box snd rcv e 2 * wrap coords box snd rcv e 2)

/-- The displacements as the array `[pair, axis]` … -/
def wrapArr (coords : (⟨2, ![262144, 3]⟩ : Shape).Idx → EReal) (box : (⟨2, ![1, 3]⟩ : Shape).Idx → EReal)
    (snd rcv : (⟨1, ![16777216]⟩ : Shape).Idx → BitVec 32) : (⟨2, ![16777216, 3]⟩ : Shape).Idx → EReal :=
  fun i => wrap coords box snd rcv (i 0) (i 1)

/-- … and laid out `[axis, pair]`, pairs along the minor axis. -/
def wrapArrT (coords : (⟨2, ![262144, 3]⟩ : Shape).Idx → EReal) (box : (⟨2, ![1, 3]⟩ : Shape).Idx → EReal)
    (snd rcv : (⟨1, ![16777216]⟩ : Shape).Idx → BitVec 32) : (⟨2, ![3, 16777216]⟩ : Shape).Idx → EReal :=
  fun i => wrap coords box snd rcv (i 1) (i 0)

/-- The lengths as the column `[pair, 1]` … -/
def distArr (coords : (⟨2, ![262144, 3]⟩ : Shape).Idx → EReal) (box : (⟨2, ![1, 3]⟩ : Shape).Idx → EReal)
    (snd rcv : (⟨1, ![16777216]⟩ : Shape).Idx → BitVec 32) : (⟨2, ![16777216, 1]⟩ : Shape).Idx → EReal :=
  fun i => dist coords box snd rcv (i 0)

/-- … and as the row `[1, pair]`. -/
def distArrT (coords : (⟨2, ![262144, 3]⟩ : Shape).Idx → EReal) (box : (⟨2, ![1, 3]⟩ : Shape).Idx → EReal)
    (snd rcv : (⟨1, ![16777216]⟩ : Shape).Idx → BitVec 32) : (⟨2, ![1, 16777216]⟩ : Shape).Idx → EReal :=
  fun i => dist coords box snd rcv (i 1)

end Cert.MinImage

end
-- ==== Proof.Gather.lean ====
/-
  Reading a row of the coordinate table through an index word.

  Both programs fetch an atom's coordinates with a gather whose start indices are the index words after
  numpy's treatment of negative words (a word below zero has 262144 added), laid out as a column. The
  gather clamps each start index so that the slice fits, which is the clamp in `node`. One program gathers
  rows of the table `[262144, 3]`, the other columns of its transpose `[3, 262144]`; read at an index,
  both are the table at row `node (word)`.
-/
import Idealize.ShloMosaic.Lib.Pipeline.Value
import Idealize.ShloMosaic.Lib.ValueIdx
import proofs.«137478_j10677288698563_1_alg».proof.Proof.Spec

noncomputable section

namespace Cert.MinImage

open Idealize.ShloMosaic Idealize.ShloMosaic.ValueIdx

/-- The column of start indices at pair `e`: the index word, with 262144 added when it is negative. -/
theorem startIdx_apply (h0 : (⟨0, ![]⟩ : Shape).BroadcastsInDim ⟨1, ![16777216]⟩ (![] : Fin 0 → Fin 1))
    (h1 : (⟨1, ![16777216]⟩ : Shape).BroadcastsInDim ⟨2, ![16777216, 1]⟩ (![0] : Fin 1 → Fin 2))
    (x : IVec ⟨1, ![16777216]⟩ 32) (e : Fin 16777216) :
    broadcastInDim ⟨2, ![16777216, 1]⟩ ![0] h1
      (select (cmpi .slt x (broadcastInDim ⟨1, ![16777216]⟩ ![] h0 (constantI ⟨0, ![]⟩ 32 0#32)))
        (addi x (broadcastInDim ⟨1, ![16777216]⟩ ![] h0 (constantI ⟨0, ![]⟩ 32 262144#32))) x) (ix2 e (0 : Fin 1))
    = Scalar.select (IntOp.cmpi .slt (x (ix1 e)) 0#32) (IntOp.addi (x (ix1 e)) 262144#32) (x (ix1 e)) := by
  refine (broadcastInDim_apply _ h1 _ (ix2 e (0 : Fin 1)) (ix1 e) (fun a => ?_)).trans ?_
  · match a with
    | ⟨0, _⟩ => show e.val = if (16777216 : Nat) = 1 then 0 else e.val; rw [if_neg (by decide)]
  · rfl

/-- The dimension numbers of a gather of whole rows of `[262144, 3]` at a column of start indices. -/
abbrev rowDims (wf : GatherDims.WF ⟨2, ![262144, 3]⟩ ⟨2, ![16777216, 1]⟩ ⟨2, ![16777216, 3]⟩ [1] [0] [] [0] [] 1 ![1, 3]) :
    GatherDims ⟨2, ![262144, 3]⟩ ⟨2, ![16777216, 1]⟩ ⟨2, ![16777216, 3]⟩ where
  offsetDims := [1]
  collapsedSliceDims := [0]
  operandBatchingDims := []
  startIndicesBatchingDims := []
  startIndexMap := [0]
  indexVectorDim := 1
  sliceSizes := ![1, 3]
  wf := wf

/-- That gather at `(e, k)`: the table at the clamped start index of pair `e`, axis `k`. -/
theorem gather_rows_apply {α : Type}
    (wf : GatherDims.WF ⟨2, ![262144, 3]⟩ ⟨2, ![16777216, 1]⟩ ⟨2, ![16777216, 3]⟩ [1] [0] [] [0] [] 1 ![1, 3])
    (x : (⟨2, ![262144, 3]⟩ : Shape).Idx → α) (idx : IVec ⟨2, ![16777216, 1]⟩ 32) (e : Fin 16777216) (k : Fin 3) :
    Host.gather (rowDims wf) x idx (ix2 e k)
      = x (ix2 (⟨min (idx (ix2 e (0 : Fin 1))).toInt.toNat 262143, by omega⟩ : Fin 262144) k) := by
  unfold Host.gather
  congr 1
  funext a
  refine Fin.ext ?_
  match a with
  | ⟨0, _⟩ =>
    show (rowDims wf).start (ix2 e k) idx 0 + (rowDims wf).batchCoord (ix2 e k) 0 + (rowDims wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims wf).startIndexMap from List.mem_singleton.mpr rfl)]
    have hsi : (rowDims wf).siIdx (ix2 e k) ⟨List.idxOf (0 : Fin 2) (rowDims wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims wf).start (ix2 e k) idx 1 + (rowDims wf).batchCoord (ix2 e k) 1 + (rowDims wf).offCoord (ix2 e k) 1 = k.val
    rw [GatherDims.batchCoord_eq_zero _ _ _ List.not_mem_nil]
    unfold GatherDims.start
    rw [dif_neg (show (1 : Fin 2) ∉ [(0 : Fin 2)] by decide)]
    unfold GatherDims.offCoord
    rw [dif_pos ((GatherDims.mem_sKept _ _).mpr ⟨(show (1 : Fin 2) ∉ [(0 : Fin 2)] by decide), List.not_mem_nil⟩)]
    simp only [Nat.zero_add, Nat.add_zero]
    rfl

/-- The dimension numbers of a gather of whole columns of `[3, 262144]` at a column of start indices. -/
abbrev colDims (wf : GatherDims.WF ⟨2, ![3, 262144]⟩ ⟨2, ![16777216, 1]⟩ ⟨2, ![3, 16777216]⟩ [0] [1] [] [1] [] 1 ![3, 1]) :
    GatherDims ⟨2, ![3, 262144]⟩ ⟨2, ![16777216, 1]⟩ ⟨2, ![3, 16777216]⟩ where
  offsetDims := [0]
  collapsedSliceDims := [1]
  operandBatchingDims := []
  startIndicesBatchingDims := []
  startIndexMap := [1]
  indexVectorDim := 1
  sliceSizes := ![3, 1]
  wf := wf

/-- That gather at `(k, e)`: the transposed table at axis `k`, the clamped start index of pair `e`. -/
theorem gather_cols_apply {α : Type}
    (wf : GatherDims.WF ⟨2, ![3, 262144]⟩ ⟨2, ![16777216, 1]⟩ ⟨2, ![3, 16777216]⟩ [0] [1] [] [1] [] 1 ![3, 1])
    (x : (⟨2, ![3, 262144]⟩ : Shape).Idx → α) (idx : IVec ⟨2, ![16777216, 1]⟩ 32) (k : Fin 3) (e : Fin 16777216) :
    Host.gather (colDims wf) x idx (ix2 k e)
      = x (ix2 k (⟨min (idx (ix2 e (0 : Fin 1))).toInt.toNat 262143, by omega⟩ : Fin 262144)) := by
  unfold Host.gather
  congr 1
  funext a
  refine Fin.ext ?_
  match a with
  | ⟨0, _⟩ =>
    show (colDims wf).start (ix2 k e) idx 0 + (colDims wf).batchCoord (ix2 k e) 0 + (colDims wf).offCoord (ix2 k e) 0 = k.val
    rw [GatherDims.batchCoord_eq_zero _ _ _ List.not_mem_nil]
    unfold GatherDims.start
    rw [dif_neg (show (0 : Fin 2) ∉ [(1 : Fin 2)] by decide)]
    unfold GatherDims.offCoord
    rw [dif_pos ((GatherDims.mem_sKept _ _).mpr ⟨(show (0 : Fin 2) ∉ [(1 : Fin 2)] by decide), List.not_mem_nil⟩)]
    simp only [Nat.zero_add, Nat.add_zero]
    rfl
  | ⟨1, _⟩ =>
    show (colDims wf).start (ix2 k e) idx 1 + (colDims wf).batchCoord (ix2 k e) 1 + (colDims wf).offCoord (ix2 k e) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (colDims wf).startIndexMap from List.mem_singleton.mpr rfl)]
    have hsi : (colDims wf).siIdx (ix2 k e) ⟨List.idxOf (1 : Fin 2) (colDims wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

end Cert.MinImage

end
-- ==== Proof.RefValue.lean ====
/-
  The reference program, read index by index: its two results are the minimum-image displacements
  `wrapArr` and their lengths `distArr` of its four arguments.

  The reference gathers whole rows of the coordinate table for the two end points of every pair, subtracts,
  folds each component into the box (the box row broadcast along the pairs), and takes the norm as the
  square root of zero plus the sum over the three axes of the squares.
-/
import proofs.«137478_j10677288698563_1_alg».proof.Proof.Gen.ReferenceIdeal.Read
import proofs.«137478_j10677288698563_1_alg».proof.Proof.Gather

noncomputable section

namespace Cert.ReferenceIdeal.RefValue

open Cert.ReferenceIdeal Cert.ReferenceIdeal.Read Idealize.ShloMosaic Idealize.ShloMosaic.ValueIdx Cert.MinImage

variable (x0 : (⟨S262144x3, .f32⟩ : BufTy).Contents (Elt Ideal)) (x1 : (⟨S1x3, .f32⟩ : BufTy).Contents (Elt Ideal))
  (x2 x3 : (⟨S16777216, .i32⟩ : BufTy).Contents (Elt Ideal))

/-- The senders' rows: at `(e, k)` the table at row `node (senders e)`. -/
theorem senders_row (e : Fin 16777216) (k : Fin 3) :
    val_main_v6 (F := Ideal) x0 x2 (ix2 e k) = x0 (ix2 (node (x2 (ix1 e))) k) := by
  unfold val_main_v6 val_main_v5 val_main_v4 val_main_v1 val_main_v3 val_main_v0 val_main_v2 val_main_c val_main_c_0
  unfold gather_S262144x3_S16777216x1_S16777216x3_1_0_n_n_0_1_13
  refine (gather_rows_apply _ x0 _ e k).trans (congrArg (fun r => x0 (ix2 r k)) (Fin.ext ?_))
  show min (BitVec.toInt _).toNat 262143 = (node (x2 (ix1 e))).val
  rw [startIdx_apply]
  rfl

/-- The receivers' rows likewise. -/
theorem receivers_row (e : Fin 16777216) (k : Fin 3) :
    val_main_v13 (F := Ideal) x0 x3 (ix2 e k) = x0 (ix2 (node (x3 (ix1 e))) k) := by
  unfold val_main_v13 val_main_v12 val_main_v11 val_main_v8 val_main_v10 val_main_v7 val_main_v9 val_main_c_1 val_main_c_2
  unfold gather_S262144x3_S16777216x1_S16777216x3_1_0_n_n_0_1_13
  refine (gather_rows_apply _ x0 _ e k).trans (congrArg (fun r => x0 (ix2 r k)) (Fin.ext ?_))
  show min (BitVec.toInt _).toNat 262143 = (node (x3 (ix1 e))).val
  rw [startIdx_apply]
  rfl

/-- The box row broadcast along the pairs reads the box side of the axis. -/
theorem box_idx (e : Fin 16777216) (k : Fin 3) : idx_main_v15 (ix2 e k) = ix2 (0 : Fin 1) k :=
  funext fun a => Fin.ext (by match a with | ⟨0, _⟩ => rfl | ⟨1, _⟩ => rfl)

/-- THE DISPLACEMENTS: the reference's second result is `wrapArr`. -/
theorem wrap_eq : val_main_v20 (F := Ideal) x0 x1 x2 x3 = wrapArr x0 x1 x2 x3 := by
  funext i
  obtain ⟨e, k, rfl⟩ : ∃ (e : Fin 16777216) (k : Fin 3), i = ix2 e k := ⟨i 0, i 1, eq_ix2 i⟩
  rw [val_main_v20_apply, val_main_v19_apply, val_main_v17_apply, val_main_v16_apply, val_main_v14_apply,
    val_main_v18_apply, val_main_v15_apply, senders_row, receivers_row]
  simp only [Ideal.subf_def, Ideal.mulf_def, Ideal.hostDivf_def, Ideal.hostUnary_roundeven_def]
  show _ = wrap x0 x1 x2 x3 e k
  unfold wrap fold disp
  rw [show idx_main_v18 (ix2 e k) = ix2 (0 : Fin 1) k from box_idx e k, box_idx]

/-- The index chain of the norm: column entry `(e, 0)` sums row `e` over the three axes. -/
theorem norm_idx (e : Fin 16777216) (k : Fin 3) :
    idx_main_call1_v1 (idx_main_call1_v2 (ix2 e (0 : Fin 1))) k = ix2 e k :=
  funext fun a => Fin.ext (by match a with | ⟨0, _⟩ => rfl | ⟨1, _⟩ => rfl)

/-- THE LENGTHS: the reference's first result is `distArr`. -/
theorem dist_eq : val_main_v21 (F := Ideal) x0 x1 x2 x3 = distArr x0 x1 x2 x3 := by
  funext i
  obtain ⟨e, z, rfl⟩ : ∃ (e : Fin 16777216) (z : Fin 1), i = ix2 e z := ⟨i 0, i 1, eq_ix2 i⟩
  obtain rfl : z = 0 := Subsingleton.elim _ _
  rw [val_main_v21_apply, val_main_call1_v2_apply, val_main_call1_v1_apply, Fin.sum_univ_three]
  simp only [val_main_call1_v0_apply, val_main_call1_cst_apply, norm_idx, wrap_eq]
  simp only [Ideal.mulf_def, Ideal.hostUnary_sqrt_def, Ideal.ofBits_def, Ideal.ofBits_zero_f32, zero_add]
  rfl

end Cert.ReferenceIdeal.RefValue

end
-- ==== Proof.KernelBody.lean ====
/-
  The kernel body's arithmetic, read at an index.

  On a block of 65536 pairs the body holds the senders' and the receivers' coordinates as `[3, 65536]` (axis
  major, pair minor) and the box sides as a column `[3, 1]`. Its first store is, entry by entry, the
  displacement folded into the box; its second the square root of the three squared components of one
  pair, added first to second, then the third.
-/
import proofs.«137478_j10677288698563_1_alg».proof.Proof.Gen.KernelIdeal.Skeleton
import proofs.«137478_j10677288698563_1_alg».proof.Proof.Spec
import Idealize.ShloMosaic.Lib.Pipeline.Value
import Idealize.ShloMosaic.Lib.ValueIdx

noncomputable section

namespace Cert.KernelIdeal.Hand

open Cert.KernelIdeal Cert.KernelIdeal.Gen Idealize.ShloMosaic Idealize.ShloMosaic.ValueIdx Cert.MinImage

/-- The first store at `(k, l)`: the difference of the two blocks there, folded into the side `bx (k, 0)`. -/
theorem pay1_apply (a b : Vec Ideal S3x65536 .f32) (bx : Vec Ideal S3x1 .f32) (k : Fin 3) (l : Fin 65536) :
    k0_pay1 (F := Ideal) a b bx (ix2 k l) = fold (b (ix2 k l) - a (ix2 k l)) (bx (ix2 k (0 : Fin 1))) := by
  have hb : broadcastTo S3x65536 (shapeCast S3x1 bx shapeCasts_S3x1_S3x1) broadcasts_S3x1_S3x65536 (ix2 k l) = bx (ix2 k (0 : Fin 1)) := by
    rw [shapeCast_self]
    refine broadcastTo_apply bx _ (ix2 k l) (ix2 k (0 : Fin 1)) (fun a => ?_)
    match a with
    | ⟨0, _⟩ => show k.val = if (3 : Nat) = 1 then 0 else k.val; rw [if_neg (by decide)]
    | ⟨1, _⟩ => show 0 = if (1 : Nat) = 1 then 0 else l.val; rw [if_pos rfl]
  unfold k0_pay1
  show (shapeCast S3x65536 b shapeCasts_S3x65536_S3x65536 (ix2 k l) - shapeCast S3x65536 a shapeCasts_S3x65536_S3x65536 (ix2 k l))
      - Ideal.liftRound Ideal.roundHalfEven (Ideal.div (shapeCast S3x65536 b shapeCasts_S3x65536_S3x65536 (ix2 k l) - shapeCast S3x65536 a shapeCasts_S3x65536_S3x65536 (ix2 k l))
          (broadcastTo S3x65536 (shapeCast S3x1 bx shapeCasts_S3x1_S3x1) broadcasts_S3x1_S3x65536 (ix2 k l)))
        * broadcastTo S3x65536 (shapeCast S3x1 bx shapeCasts_S3x1_S3x1) broadcasts_S3x1_S3x65536 (ix2 k l) = _
  rw [hb, shapeCast_self, shapeCast_self]
  rfl

/-- Row `k` of a `[3, 65536]` value, taken as a `[1, 65536]` slice, at pair `l`. -/
theorem row_apply {α : Type} (x : S3x65536.Idx → α) (off : Fin S3x65536.rank → Nat) (h : S3x65536.Slices off S1x65536)
    (k : Fin 3) (l : Fin 65536) (h0 : off 0 = k.val) (h1 : off 1 = 0) :
    extractStridedSlice S1x65536 off x h (ix2 (0 : Fin 1) l) = x (ix2 k l) := by
  refine extractStridedSlice_apply _ x h (ix2 (0 : Fin 1) l) (ix2 k l) (fun a => ?_)
  match a with
  | ⟨0, _⟩ => show k.val = off 0 + 0; rw [h0]; rfl
  | ⟨1, _⟩ => show l.val = off 1 + l.val; rw [h1]; omega

/-- The second store at pair `l`: the length of the three components the first store holds for it. -/
theorem pay2_apply (a b : Vec Ideal S3x65536 .f32) (bx : Vec Ideal S3x1 .f32) (l : Fin 65536) :
    k0_pay2 (F := Ideal) a b bx (ix2 (0 : Fin 1) l)
      = Ideal.sqrt ((k0_pay1 (F := Ideal) a b bx (ix2 0 l) * k0_pay1 (F := Ideal) a b bx (ix2 0 l)
          + k0_pay1 (F := Ideal) a b bx (ix2 1 l) * k0_pay1 (F := Ideal) a b bx (ix2 1 l))
        + k0_pay1 (F := Ideal) a b bx (ix2 2 l) * k0_pay1 (F := Ideal) a b bx (ix2 2 l)) := by
  unfold k0_pay2
  show Ideal.sqrt ((extractStridedSlice S1x65536 ![0, 0] (k0_pay1 a b bx) slices_S3x65536_o0_0_S1x65536 (ix2 (0 : Fin 1) l)
          * extractStridedSlice S1x65536 ![0, 0] (k0_pay1 a b bx) slices_S3x65536_o0_0_S1x65536 (ix2 (0 : Fin 1) l)
        + extractStridedSlice S1x65536 ![1, 0] (k0_pay1 a b bx) slices_S3x65536_o1_0_S1x65536 (ix2 (0 : Fin 1) l)
          * extractStridedSlice S1x65536 ![1, 0] (k0_pay1 a b bx) slices_S3x65536_o1_0_S1x65536 (ix2 (0 : Fin 1) l))
      + extractStridedSlice S1x65536 ![2, 0] (k0_pay1 a b bx) slices_S3x65536_o2_0_S1x65536 (ix2 (0 : Fin 1) l)
          * extractStridedSlice S1x65536 ![2, 0] (k0_pay1 a b bx) slices_S3x65536_o2_0_S1x65536 (ix2 (0 : Fin 1) l)) = _
  rw [row_apply (k0_pay1 a b bx) _ slices_S3x65536_o0_0_S1x65536 0 l rfl rfl,
    row_apply (k0_pay1 a b bx) _ slices_S3x65536_o1_0_S1x65536 1 l rfl rfl,
    row_apply (k0_pay1 a b bx) _ slices_S3x65536_o2_0_S1x65536 2 l rfl rfl]

end Cert.KernelIdeal.Hand

end
-- ==== Proof.KernelEntry.lean ====
/-
  What the kernel's three input arrays hold when the region is entered.

  Before the region the program transposes the coordinate table to `[3, 262144]`, gathers from it one
  column per pair for the senders and one for the receivers (`[3, 16777216]`: axis major, pair minor),
  and reshapes the box row `[1, 3]` into a column `[3, 1]`. Read at an index: entry `(k, e)` of a gathered
  array is the table at row `node (word e)`, axis `k`; entry `(k, 0)` of the column is box side `k`.
-/
import proofs.«137478_j10677288698563_1_alg».proof.Proof.Gen.KernelIdeal.Frame
import proofs.«137478_j10677288698563_1_alg».proof.Proof.Gather
import Idealize.ShloMosaic.Lib.StableHlo.Run

noncomputable section

namespace Cert.KernelIdeal.Hand

open Cert.KernelIdeal Cert.KernelIdeal.Gen Idealize.ShloMosaic Idealize.ShloMosaic.TcCoe Idealize.ShloMosaic.ValueIdx
open Cert.MinImage Idealize.SL.Sem Idealize.ShloMosaic.StableHlo

variable (m : (ℓ : Loc nD τ sig) → Buf (Elt Ideal) ℓ)

/-- The transposed table at `(k, n)` is the table at `(n, k)`. -/
theorem tableT_apply (x : S262144x3.Idx → EReal) (k : Fin 3) (n : Fin 262144) :
    transpose S3x262144 [1, 0] x transposes_S262144x3_S3x262144_1_0 (ix2 k n) = x (ix2 n k) := by
  refine transpose_apply [1, 0] x _ (ix2 k n) (ix2 n k) (fun b => ?_)
  match b with
  | ⟨0, _⟩ => rfl
  | ⟨1, _⟩ => rfl

/-- A column gather of the transposed table with the start indices of the words `w`, at `(k, e)`. -/
theorem cols_apply (x : S262144x3.Idx → EReal) (w : IVec S16777216 32) (k : Fin 3) (e : Fin 16777216) :
    Host.gather gather_S3x262144_S16777216x1_S3x16777216_0_1_n_n_1_1_31
      (transpose S3x262144 [1, 0] x transposes_S262144x3_S3x262144_1_0)
      (broadcastInDim S16777216x1 ![0] bcast_S16777216_S16777216x1_0
        (select (cmpi .slt w (broadcastInDim S16777216 ![] bcast_S_S16777216 (constantI S_ 32 0#32)))
          (addi w (broadcastInDim S16777216 ![] bcast_S_S16777216 (constantI S_ 32 262144#32))) w)) (ix2 k e)
      = x (ix2 (node (w (ix1 e))) k) := by
  unfold gather_S3x262144_S16777216x1_S3x16777216_0_1_n_n_1_1_31
  refine (gather_cols_apply _ _ _ k e).trans ?_
  refine (tableT_apply x k _).trans (congrArg (fun r => x (ix2 r k)) (Fin.ext ?_))
  show min (BitVec.toInt _).toNat 262143 = (node (w (ix1 e))).val
  rw [startIdx_apply]
  rfl

/-- Input window 0's array: the senders' coordinates, axis major. -/
theorem entry_senders (c : Dev nD) (k : Fin 3) (e : Fin 16777216) :
    (V m c main_v7 : S3x16777216.Idx → EReal) (ix2 k e)
      = (m ((c : Thread nD τ).loc main_arg0) : S262144x3.Idx → EReal)
          (ix2 (node ((m ((c : Thread nD τ).loc main_arg2) : S16777216.Idx → BitVec 32) (ix1 e))) k) := by
  have h : (V m c main_v7 : S3x16777216.Idx → EReal)
      = Host.gather gather_S3x262144_S16777216x1_S3x16777216_0_1_n_n_1_1_31
          (transpose S3x262144 [1, 0] (m ((c : Thread nD τ).loc main_arg0)) transposes_S262144x3_S3x262144_1_0)
          (broadcastInDim S16777216x1 ![0] bcast_S16777216_S16777216x1_0
            (select (cmpi .slt (m ((c : Thread nD τ).loc main_arg2)) (broadcastInDim S16777216 ![] bcast_S_S16777216 (constantI S_ 32 0#32)))
              (addi (m ((c : Thread nD τ).loc main_arg2)) (broadcastInDim S16777216 ![] bcast_S_S16777216 (constantI S_ 32 262144#32)))
              (m ((c : Thread nD τ).loc main_arg2)))) := by
    show StableHlo.after hostOps0 (fun b => m (c, b)) (Proc.devRef .tc main_v7) = _
    after_results <;> rfl
  rw [h]
  exact cols_apply _ _ k e

/-- Input window 1's array: the receivers' coordinates, axis major. -/
theorem entry_receivers (c : Dev nD) (k : Fin 3) (e : Fin 16777216) :
    (V m c main_v14 : S3x16777216.Idx → EReal) (ix2 k e)
      = (m ((c : Thread nD τ).loc main_arg0) : S262144x3.Idx → EReal)
          (ix2 (node ((m ((c : Thread nD τ).loc main_arg3) : S16777216.Idx → BitVec 32) (ix1 e))) k) := by
  have h : (V m c main_v14 : S3x16777216.Idx → EReal)
      = Host.gather gather_S3x262144_S16777216x1_S3x16777216_0_1_n_n_1_1_31
          (transpose S3x262144 [1, 0] (m ((c : Thread nD τ).loc main_arg0)) transposes_S262144x3_S3x262144_1_0)
          (broadcastInDim S16777216x1 ![0] bcast_S16777216_S16777216x1_0
            (select (cmpi .slt (m ((c : Thread nD τ).loc main_arg3)) (broadcastInDim S16777216 ![] bcast_S_S16777216 (constantI S_ 32 0#32)))
              (addi (m ((c : Thread nD τ).loc main_arg3)) (broadcastInDim S16777216 ![] bcast_S_S16777216 (constantI S_ 32 262144#32)))
              (m ((c : Thread nD τ).loc main_arg3)))) := by
    show StableHlo.after hostOps0 (fun b => m (c, b)) (Proc.devRef .tc main_v14) = _
    after_results <;> rfl
  rw [h]
  exact cols_apply _ _ k e

/-- Input window 2's array: the box sides as a column. -/
theorem entry_box (c : Dev nD) (k : Fin 3) :
    (V m c main_v15 : S3x1.Idx → EReal) (ix2 k (0 : Fin 1))
      = (m ((c : Thread nD τ).loc main_arg1) : S1x3.Idx → EReal) (ix2 (0 : Fin 1) k) := by
  have h : (V m c main_v15 : S3x1.Idx → EReal)
      = shapeCast S3x1 (m ((c : Thread nD τ).loc main_arg1) : S1x3.Idx → EReal) shapeCasts_S1x3_S3x1 := by
    show StableHlo.after hostOps0 (fun b => m (c, b)) (Proc.devRef .tc main_v15) = _
    after_results <;> rfl
  rw [h]
  refine shapeCast_apply _ _ (ix2 k (0 : Fin 1)) (ix2 (0 : Fin 1) k) ?_
  rw [Shape.rowMajor_val_two, Shape.rowMajor_val_two]
  show 0 * 3 + k.val = k.val * 1 + 0
  omega

end Cert.KernelIdeal.Hand

end
-- ==== Proof.KernelBlocks.lean ====
/-
  From blocks to arrays: what the kernel's two output arrays hold when the region ends.

  The grid has 256 points; at point `t` every window but the box column is at block `(0, t)`: pairs
  `65536 t … 65536 t + 65535`, all three axes (one row for the lengths). So entry `(k, l)` of a block
  is entry `(k, 65536 t + l)` of its array, the body's stores at `t` are the blocks of `wrapArrT` and of
  `distArrT` there, and since every pair `e` lies in block `e / 65536`, the blocks fill both arrays.
-/
import proofs.«137478_j10677288698563_1_alg».proof.Proof.Gen.KernelIdeal.Frame
import proofs.«137478_j10677288698563_1_alg».proof.Proof.KernelBody
import proofs.«137478_j10677288698563_1_alg».proof.Proof.KernelEntry
import Idealize.ShloMosaic.Lib.Pipeline.Value

noncomputable section

namespace Cert.KernelIdeal.Hand

open Cert.KernelIdeal Cert.KernelIdeal.Gen Idealize.ShloMosaic Idealize.ShloMosaic.TcCoe Idealize.ShloMosaic.ValueIdx
open Cert.MinImage Idealize.SL.Sem
open Idealize.ShloMosaic.Pipeline (Dat)

variable (m : (ℓ : Loc nD τ sig) → Buf (Elt Ideal) ℓ)

/-- The four argument arrays as launched, as functions of an index. -/
abbrev argCoords (c : Dev nD) : (⟨2, ![262144, 3]⟩ : Shape).Idx → EReal := m ((c : Thread nD τ).loc main_arg0)
abbrev argBox (c : Dev nD) : (⟨2, ![1, 3]⟩ : Shape).Idx → EReal := m ((c : Thread nD τ).loc main_arg1)
abbrev argSnd (c : Dev nD) : (⟨1, ![16777216]⟩ : Shape).Idx → BitVec 32 := m ((c : Thread nD τ).loc main_arg2)
abbrev argRcv (c : Dev nD) : (⟨1, ![16777216]⟩ : Shape).Idx → BitVec 32 := m ((c : Thread nD τ).loc main_arg3)

theorem hz : (![0, 0] : Fin 2 → Nat) = fun _ => 0 := funext fun a => by fin_cases a <;> rfl

/-- The printed index maps, decided over the 256 points: block `(0, t)` for the pair-indexed windows, block
    `(0, 0)` for the box column. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = 0
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-- A point is below 256. -/
theorem point_lt (t : Fin cfg0.N) : t.val < 256 :=
  lt_of_lt_of_eq t.isLt (show cfg0.N = 256 from N_0)

/-! ## The input blocks, read at an index -/

/-- The senders' block at point `t`, entry `(k, l)`: pair `65536 t + l`, axis `k`. -/
theorem blk_senders (c : Dev nD) (t : Fin cfg0.N) (k : Fin 3) (l : Fin 65536) (e : Fin 16777216)
    (he : e.val = t.val * 65536 + l.val) :
    (iblk m c 0 t : Vec Ideal S3x65536 .f32) (ix2 k l) = argCoords m c (ix2 (node (argSnd m c (ix1 e))) k) := by
  obtain ⟨e0, e1, -⟩ := idx_facts t
  unfold iblk
  rw [View.read_apply]
  refine Eq.trans (congrArg (V m c main_v7 : S3x16777216.Idx → EReal) ?_) (entry_senders m c k e)
  funext a
  apply Fin.ext
  match a with
  | ⟨0, _⟩ => show win0_0.index t (0 : Fin 2) * 3 + 1 * k.val = k.val; rw [e0]; omega
  | ⟨1, _⟩ => show win0_0.index t (1 : Fin 2) * 65536 + 1 * l.val = e.val; rw [e1, he]; omega

/-- The receivers' block likewise. -/
theorem blk_receivers (c : Dev nD) (t : Fin cfg0.N) (k : Fin 3) (l : Fin 65536) (e : Fin 16777216)
    (he : e.val = t.val * 65536 + l.val) :
    (iblk m c 1 t : Vec Ideal S3x65536 .f32) (ix2 k l) = argCoords m c (ix2 (node (argRcv m c (ix1 e))) k) := by
  obtain ⟨-, -, e0, e1, -⟩ := idx_facts t
  unfold iblk
  rw [View.read_apply]
  refine Eq.trans (congrArg (V m c main_v14 : S3x16777216.Idx → EReal) ?_) (entry_receivers m c k e)
  funext a
  apply Fin.ext
  match a with
  | ⟨0, _⟩ => show win0_1.index t (0 : Fin 2) * 3 + 1 * k.val = k.val; rw [e0]; omega
  | ⟨1, _⟩ => show win0_1.index t (1 : Fin 2) * 65536 + 1 * l.val = e.val; rw [e1, he]; omega

/-- The box column's one block, entry `(k, 0)`: box side `k`. -/
theorem blk_box (c : Dev nD) (t : Fin cfg0.N) (k : Fin 3) :
    (iblk m c 2 t : Vec Ideal S3x1 .f32) (ix2 k (0 : Fin 1)) = argBox m c (ix2 (0 : Fin 1) k) := by
  obtain ⟨-, -, -, -, e0, e1, -⟩ := idx_facts t
  unfold iblk
  rw [View.read_apply]
  refine Eq.trans (congrArg (V m c main_v15 : S3x1.Idx → EReal) ?_) (entry_box m c k)
  funext a
  apply Fin.ext
  match a with
  | ⟨0, _⟩ => show win0_2.index t (0 : Fin 2) * 3 + 1 * k.val = k.val; rw [e0]; omega
  | ⟨1, _⟩ => show win0_2.index t (1 : Fin 2) * 1 + 1 * 0 = 0; rw [e1]

/-! ## What point `t` stores, at an index -/

/-- The first store at block entry `y` is `wrapArrT` at the array index `i` that entry lies on. -/
theorem wrap_block (c : Dev nD) (t : Fin cfg0.N) (y : S3x65536.Idx) (i : S3x16777216.Idx)
    (h0 : (i 0).val = (y 0).val) (h1 : (i 1).val = t.val * 65536 + (y 1).val) :
    k0_pay1 (F := Ideal) (iblk m c 0 t) (iblk m c 1 t) (iblk m c 2 t) y
      = wrapArrT (argCoords m c) (argBox m c) (argSnd m c) (argRcv m c) i := by
  obtain ⟨k, l, rfl⟩ : ∃ (k : Fin 3) (l : Fin 65536), y = ix2 k l := ⟨y 0, y 1, eq_ix2 y⟩
  obtain ⟨k', e, rfl⟩ : ∃ (k' : Fin 3) (e : Fin 16777216), i = ix2 k' e := ⟨i 0, i 1, eq_ix2 i⟩
  obtain rfl : k' = k := Fin.ext h0
  rw [pay1_apply, blk_senders m c t k' l e h1, blk_receivers m c t k' l e h1, blk_box m c t k']
  rfl

/-- The second store at block entry `y` is `distArrT` at the array index that entry lies on. -/
theorem dist_block (c : Dev nD) (t : Fin cfg0.N) (y : S1x65536.Idx) (i : S1x16777216.Idx)
    (h1 : (i 1).val = t.val * 65536 + (y 1).val) :
    k0_pay2 (F := Ideal) (iblk m c 0 t) (iblk m c 1 t) (iblk m c 2 t) y
      = distArrT (argCoords m c) (argBox m c) (argSnd m c) (argRcv m c) i := by
  obtain ⟨z, l, rfl⟩ : ∃ (z : Fin 1) (l : Fin 65536), y = ix2 z l := ⟨y 0, y 1, eq_ix2 y⟩
  obtain rfl : z = 0 := Subsingleton.elim _ _
  obtain ⟨z', e, rfl⟩ : ∃ (z' : Fin 1) (e : Fin 16777216), i = ix2 z' e := ⟨i 0, i 1, eq_ix2 i⟩
  rw [pay2_apply,
    wrap_block m c t (ix2 0 l) (ix2 0 e) rfl h1, wrap_block m c t (ix2 1 l) (ix2 1 e) rfl h1,
    wrap_block m c t (ix2 2 l) (ix2 2 e) rfl h1]
  rfl

/-! ## Output window 3: the displacements, axis major -/

/-- WHAT POINT `t` WRITES BACK to the displacement array is block `t` of `wrapArrT` of the arguments. -/
theorem flushed3_eq (c : Dev nD) (t : Fin cfg0.N) :
    (dats m 0 c).flushed 3 t
      = ((cfg0.win 3).blk t).view.read (Elt Ideal) (wrapArrT (argCoords m c) (argBox m c) (argSnd m c) (argRcv m c)) := by
  show (cfg0.win 3).cut (grid0.coords t) ((dats m 0 c).after 3 t) = _
  rw [after0_3]
  unfold out0_3
  rw [View.canon_unit_zero hz]
  simp only [View.ld_unit_zero (S := S3x65536) hz, View.ld_unit_zero (S := S3x1) hz]
  obtain ⟨-, -, -, -, -, -, e0, e1, -⟩ := idx_facts t
  funext j
  refine wrap_block m c t j _ ?_ ?_
  · show win0_3.index t (0 : Fin 2) * 3 + 1 * (j 0).val = (j 0).val; rw [e0]; omega
  · show win0_3.index t (1 : Fin 2) * 65536 + 1 * (j 1).val = t.val * 65536 + (j 1).val; rw [e1]; omega

/-- An index of the array is in point `t`'s block iff each coordinate is in the block's range on its axis. -/
theorem mem_blk3 (t : Fin cfg0.N) (i : S3x16777216.Idx) :
    i ∈ ((cfg0.win 3).blk t).view.set ↔ ∀ a : Fin 2, win0_3.index t a * S3x65536.size a ≤ (i a).val ∧ (i a).val < win0_3.index t a * S3x65536.size a + S3x65536.size a := by
  show i ∈ ((View.whole main_v16_0).slice (win0_3.rect t)).set ↔ _
  rw [View.set_slice_whole, Rect.mem_set_unit]
  exact Iff.rfl

/-- Every index of the array is in the block of the point its pair falls to. -/
theorem cover3 (i : S3x16777216.Idx) :
    ∃ t : Fin cfg0.N, (cfg0.win 3).flush t = true ∧ i ∈ ((cfg0.win 3).blk t).view.set := by
  have hi0 : (i 0).val < 3 := (i 0).isLt
  have hi1 : (i 1).val < 16777216 := (i 1).isLt
  obtain ⟨t, ht⟩ : ∃ t : Fin cfg0.N, t.val = (i 1).val / 65536 :=
    ⟨⟨(i 1).val / 65536, by rw [show cfg0.N = 256 from N_0]; omega⟩, rfl⟩
  obtain ⟨-, -, -, -, -, -, e0, e1, -⟩ := idx_facts t
  refine ⟨t, flush0_3 t, ?_⟩
  rw [mem_blk3]
  intro a
  match a with
  | ⟨0, _⟩ => show win0_3.index t (0 : Fin 2) * 3 ≤ (i 0).val ∧ (i 0).val < win0_3.index t (0 : Fin 2) * 3 + 3; rw [e0]; omega
  | ⟨1, _⟩ => show win0_3.index t (1 : Fin 2) * 65536 ≤ (i 1).val ∧ (i 1).val < win0_3.index t (1 : Fin 2) * 65536 + 65536; rw [e1, ht]; omega

/-- THE DISPLACEMENT ARRAY after the region: `wrapArrT` of the arguments. -/
theorem final3 (c : Dev nD) :
    (dats m 0 c).arrAt 3 cfg0.N = wrapArrT (argCoords m c) (argBox m c) (argSnd m c) (argRcv m c) :=
  (dats m 0 c).arrAt_eq_of_cover 3 (wrapArrT (argCoords m c) (argBox m c) (argSnd m c) (argRcv m c))
    (fun t _ => flushed3_eq m c t) cover3

/-! ## Output window 4: the lengths, as a row -/

/-- WHAT POINT `t` WRITES BACK to the length array is block `t` of `distArrT` of the arguments. -/
theorem flushed4_eq (c : Dev nD) (t : Fin cfg0.N) :
    (dats m 0 c).flushed 4 t
      = ((cfg0.win 4).blk t).view.read (Elt Ideal) (distArrT (argCoords m c) (argBox m c) (argSnd m c) (argRcv m c)) := by
  show (cfg0.win 4).cut (grid0.coords t) ((dats m 0 c).after 4 t) = _
  rw [after0_4]
  unfold out0_4
  rw [View.canon_unit_zero hz]
  simp only [View.ld_unit_zero (S := S3x65536) hz, View.ld_unit_zero (S := S3x1) hz]
  obtain ⟨-, -, -, -, -, -, -, -, e0, e1⟩ := idx_facts t
  funext j
  refine dist_block m c t j _ ?_
  show win0_4.index t (1 : Fin 2) * 65536 + 1 * (j 1).val = t.val * 65536 + (j 1).val; rw [e1]; omega

/-- An index of the row is in point `t`'s block iff each coordinate is in the block's range on its axis. -/
theorem mem_blk4 (t : Fin cfg0.N) (i : S1x16777216.Idx) :
    i ∈ ((cfg0.win 4).blk t).view.set ↔ ∀ a : Fin 2, win0_4.index t a * S1x65536.size a ≤ (i a).val ∧ (i a).val < win0_4.index t a * S1x65536.size a + S1x65536.size a := by
  show i ∈ ((View.whole main_v16_1).slice (win0_4.rect t)).set ↔ _
  rw [View.set_slice_whole, Rect.mem_set_unit]
  exact Iff.rfl

/-- Every index of the row is in the block of the point its pair falls to. -/
theorem cover4 (i : S1x16777216.Idx) :
    ∃ t : Fin cfg0.N, (cfg0.win 4).flush t = true ∧ i ∈ ((cfg0.win 4).blk t).view.set := by
  have hi0 : (i 0).val < 1 := (i 0).isLt
  have hi1 : (i 1).val < 16777216 := (i 1).isLt
  obtain ⟨t, ht⟩ : ∃ t : Fin cfg0.N, t.val = (i 1).val / 65536 :=
    ⟨⟨(i 1).val / 65536, by rw [show cfg0.N = 256 from N_0]; omega⟩, rfl⟩
  obtain ⟨-, -, -, -, -, -, -, -, e0, e1⟩ := idx_facts t
  refine ⟨t, flush0_4 t, ?_⟩
  rw [mem_blk4]
  intro a
  match a with
  | ⟨0, _⟩ => show win0_4.index t (0 : Fin 2) * 1 ≤ (i 0).val ∧ (i 0).val < win0_4.index t (0 : Fin 2) * 1 + 1; rw [e0]; omega
  | ⟨1, _⟩ => show win0_4.index t (1 : Fin 2) * 65536 ≤ (i 1).val ∧ (i 1).val < win0_4.index t (1 : Fin 2) * 65536 + 65536; rw [e1, ht]; omega

/-- THE LENGTH ARRAY after the region: `distArrT` of the arguments. -/
theorem final4 (c : Dev nD) :
    (dats m 0 c).arrAt 4 cfg0.N = distArrT (argCoords m c) (argBox m c) (argSnd m c) (argRcv m c) :=
  (dats m 0 c).arrAt_eq_of_cover 4 (distArrT (argCoords m c) (argBox m c) (argSnd m c) (argRcv m c))
    (fun t _ => flushed4_eq m c t) cover4

end Cert.KernelIdeal.Hand

end
-- ==== Proof.KernelRun.lean ====
/-
  The kernel program's run, read: its two results as functions of its four arguments.

  After the region the program transposes the displacement array `[3, 16777216]` back to `[16777216, 3]`
  and reshapes the length row `[1, 16777216]` into a column `[16777216, 1]`. With the region's two arrays
  at `wrapArrT` and `distArrT`, the results are `wrapArr` and `distArr`.
-/
import proofs.«137478_j10677288698563_1_alg».proof.Proof.KernelBlocks
import Idealize.ShloMosaic.Lib.StableHlo.Run

noncomputable section

namespace Cert.KernelIdeal.Hand

open Cert.KernelIdeal Cert.KernelIdeal.Gen Idealize.ShloMosaic Idealize.ShloMosaic.TcCoe Idealize.ShloMosaic.ValueIdx
open Cert.MinImage Idealize.SL.Sem Idealize.ShloMosaic.StableHlo
open Idealize.ShloMosaic.Pipeline (Dat)

variable (m : (ℓ : Loc nD τ sig) → Buf (Elt Ideal) ℓ) (ρ : Dev nD → PrngReg)

/-- The transposed displacement array is the displacements `[pair, axis]`. -/
theorem tail_wrap (c : Dev nD) :
    Pipeline.afterTail₀ cfgs (dats m) 0 (V0 m) [hostOps1] c main_v17
      = wrapArr (argCoords m c) (argBox m c) (argSnd m c) (argRcv m c) := by
  unfold Pipeline.afterTail₀
  show StableHlo.after hostOps1 _ (Proc.devRef .tc main_v17) = _
  after_results
  have hw : Pipeline.withArrays (cfgs 0).spec c (V0 m c) (fun w => (dats m 0 c).arrAt w (cfgs 0).N) (Proc.devRef .tc main_v16_0)
      = wrapArrT (argCoords m c) (argBox m c) (argSnd m c) (argRcv m c) :=
    (Pipeline.withArrays_arr spec0 launch0.win.arr_inj c _ _ 3).trans (final3 m c)
  rw [hw]
  funext i
  obtain ⟨e, k, rfl⟩ : ∃ (e : Fin 16777216) (k : Fin 3), i = ix2 e k := ⟨i 0, i 1, eq_ix2 i⟩
  refine (transpose_apply [1, 0] _ _ (ix2 e k) (ix2 k e) (fun b => ?_)).trans rfl
  match b with
  | ⟨0, _⟩ => rfl
  | ⟨1, _⟩ => rfl

/-- The reshaped length row is the lengths as a column. -/
theorem tail_dist (c : Dev nD) :
    Pipeline.afterTail₀ cfgs (dats m) 0 (V0 m) [hostOps1] c main_v18
      = distArr (argCoords m c) (argBox m c) (argSnd m c) (argRcv m c) := by
  unfold Pipeline.afterTail₀
  show StableHlo.after hostOps1 _ (Proc.devRef .tc main_v18) = _
  after_results
  have hw : Pipeline.withArrays (cfgs 0).spec c (V0 m c) (fun w => (dats m 0 c).arrAt w (cfgs 0).N) (Proc.devRef .tc main_v16_1)
      = distArrT (argCoords m c) (argBox m c) (argSnd m c) (argRcv m c) :=
    (Pipeline.withArrays_arr spec0 launch0.win.arr_inj c _ _ 4).trans (final4 m c)
  rw [hw]
  funext i
  obtain ⟨e, z, rfl⟩ : ∃ (e : Fin 16777216) (z : Fin 1), i = ix2 e z := ⟨i 0, i 1, eq_ix2 i⟩
  obtain rfl : z = 0 := Subsingleton.elim _ _
  show shapeCast S16777216x1 (distArrT (argCoords m c) (argBox m c) (argSnd m c) (argRcv m c)) shapeCasts_S1x16777216_S16777216x1 (ix2 e (0 : Fin 1)) = _
  refine (shapeCast_apply _ _ (ix2 e (0 : Fin 1)) (ix2 (0 : Fin 1) e) ?_).trans rfl
  rw [Shape.rowMajor_val_two, Shape.rowMajor_val_two]
  show 0 * 16777216 + e.val = e.val * 1 + 0
  omega

/-- THE RUN: every weakly fair execution terminates with the lengths and the displacements of the argument
    arrays in the two results, the arguments unchanged. -/
theorem run : θ_run defs (onTc (τ := τ) (main (F := Ideal))) ⟨m, fun _ => 0, ρ⟩ fun r => ∀ c : Dev nD,
      r.2.mem ((c : Thread nD τ).loc main_v18) = distArr (argCoords m c) (argBox m c) (argSnd m c) (argRcv m c)
      ∧ r.2.mem ((c : Thread nD τ).loc main_v17) = wrapArr (argCoords m c) (argBox m c) (argSnd m c) (argRcv m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v18 (Pipeline.mem_restRefs_of main_v18 (by decide) (by decide))).trans (tail_dist m c),
      ((h c).2 main_v17 (Pipeline.mem_restRefs_of main_v17 (by decide) (by decide))).trans (tail_wrap m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Hand

end
-- ==== Proof.lean ====
/-
  Minimum-image displacements of 16777216 atom pairs in a periodic box, and their lengths: the Pallas
  kernel against the jnp reference, over the extended reals.

  Both programs read an index word the way numpy does (a negative word counts from the end of the 262144
  atoms; the gather clamps what is left into the table), subtract the sender's coordinates from the
  receiver's, take off the nearest whole number of box sides on each axis (`round` to even of the quotient
  by the side, times the side), and return that displacement with its Euclidean length.

  The kernel works on the transposed layout (axis major, pairs along the lanes) in 256 blocks of 65536
  pairs and transposes back at the end; it adds the three squares as (first + second) + third, the
  reference as zero plus the sum over the axis. On the extended reals both are the same function of the
  arguments, entry by entry (`Cert.MinImage.wrapArr`, `distArr`): addition is associative and zero is
  neutral there, and division, rounding and the square root are one function on the kernel's side and on
  the host's. No finiteness of the inputs is used.

  Proof/Spec.lean states the function; Proof/Gather.lean reads the two gathers at an index;
  Proof/RefValue.lean reads the reference; Proof/KernelBody.lean the kernel body's arithmetic,
  Proof/KernelEntry.lean the arrays the region finds, Proof/KernelBlocks.lean the two arrays the region
  leaves, Proof/KernelRun.lean the lines after the region and the run.
-/
import proofs.«137478_j10677288698563_1_alg».proof.Defs
import proofs.«137478_j10677288698563_1_alg».proof.Proof.Gen.Kernel
import proofs.«137478_j10677288698563_1_alg».proof.Proof.Gen.Kernel.Skeleton
import proofs.«137478_j10677288698563_1_alg».proof.Proof.Gen.Kernel.Launch
import proofs.«137478_j10677288698563_1_alg».proof.Proof.Gen.Kernel.Points
import proofs.«137478_j10677288698563_1_alg».proof.Proof.Gen.Kernel.Frame
import proofs.«137478_j10677288698563_1_alg».proof.Proof.Gen.KernelIdeal
import proofs.«137478_j10677288698563_1_alg».proof.Proof.Gen.KernelIdeal.Skeleton
import proofs.«137478_j10677288698563_1_alg».proof.Proof.Gen.KernelIdeal.Launch
import proofs.«137478_j10677288698563_1_alg».proof.Proof.Gen.KernelIdeal.Points
import proofs.«137478_j10677288698563_1_alg».proof.Proof.Gen.KernelIdeal.Frame
import proofs.«137478_j10677288698563_1_alg».proof.Proof.Gen.ReferenceIdeal
import proofs.«137478_j10677288698563_1_alg».proof.Proof.Gen.Pre_finite_inputs
import proofs.«137478_j10677288698563_1_alg».proof.Proof.Gen.ReferenceIdeal.Run
import proofs.«137478_j10677288698563_1_alg».proof.Proof.Gen.ReferenceIdeal.Read
import proofs.«137478_j10677288698563_1_alg».proof.Proof.RefValue
import proofs.«137478_j10677288698563_1_alg».proof.Proof.KernelRun
import Idealize.ShloMosaic.Adequacy
import Idealize.ShloMosaic.Init

noncomputable section

namespace Cert.Proof

open Idealize.ShloMosaic Idealize.SL.Sem Cert.MinImage

/-- The printed kernel program runs and keeps its arguments. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- The reference runs and keeps its arguments: its run, the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From memories that agree on the four arguments, both programs end with the lengths `distArr` and the
    displacements `wrapArr` of those arguments in their two results. -/
theorem algebraic : Cert.algebraic_KernelIdeal_ReferenceIdeal := by
  intro m ρ m' ρ' _ hagree
  refine ⟨fun c => distArr (Cert.KernelIdeal.Hand.argCoords m c) (Cert.KernelIdeal.Hand.argBox m c)
      (Cert.KernelIdeal.Hand.argSnd m c) (Cert.KernelIdeal.Hand.argRcv m c),
    fun c => wrapArr (Cert.KernelIdeal.Hand.argCoords m c) (Cert.KernelIdeal.Hand.argBox m c)
      (Cert.KernelIdeal.Hand.argSnd m c) (Cert.KernelIdeal.Hand.argRcv m c),
    Cert.KernelIdeal.Hand.run m ρ, ?_⟩
  refine (θ_run Cert.ReferenceIdeal.defs _ _).mono (fun _ h c => ?_) (Cert.ReferenceIdeal.Value.run (F := Ideal) m' ρ')
  obtain ⟨h21, h20, hargs⟩ := h c
  obtain ⟨a0, a1, a2, a3⟩ := hagree c
  refine ⟨?_, ?_, hargs⟩
  · rw [h21, Cert.ReferenceIdeal.Read.val_main_v21_eq, Cert.ReferenceIdeal.RefValue.dist_eq, a0, a1, a2, a3]
  · rw [h20, Cert.ReferenceIdeal.Read.val_main_v20_eq, Cert.ReferenceIdeal.RefValue.wrap_eq, a0, a1, a2, a3]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
